-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x64x128 : Shape := ⟨3, ![8192, 64, 128]⟩
abbrev S128x64x128 : Shape := ⟨3, ![128, 64, 128]⟩
abbrev S128x64 : Shape := ⟨2, ![128, 64]⟩
abbrev S128x64x1 : Shape := ⟨3, ![128, 64, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x64x128, .f32⟩
  | .hbm, ⟨2, _⟩ => ⟨S8192x64x128, .f32⟩
  | .hbm, ⟨3, _⟩ => ⟨S8192x8192, .f32⟩
  | .local _ .vmem, ⟨0, _⟩ => ⟨S128x64x128, .f32⟩
  | .local _ .vmem, ⟨1, _⟩ => ⟨S128x64x128, .f32⟩
  | .local _ .vmem, ⟨2, _⟩ => ⟨S128x64x128, .f32⟩
  | .local _ .vmem, ⟨3, _⟩ => ⟨S128x64x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x8192_S8192x64x128 : S8192x8192.ShapeCasts S8192x64x128
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  shapeCasts_S8192x64x128_S8192x8192 : S8192x64x128.ShapeCasts S8192x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .f32 = 32 ∨ (Rect.block (s := S8192x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S8192x64x128.size a
  hwx0_1 : ∀ i : grid0.Coords, EltTy.bits .f32 = 32 ∨ (Rect.block (s := S8192x64x128) S128x64x128.size (cc0_transform_1 i) (hinb0_1 i)).WholeWords (EltTy.packing .f32)

variable [Facts₀]

abbrev win0_0 : Pipeline.Window sig grid0 :=
  Pipeline.Window.ofSpec (Memref.whole main_v0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64x128 : Shape := ⟨3, ![8192, 64, 128]⟩
abbrev S_ : Shape := ⟨0, ![]⟩
abbrev S8192x64 : Shape := ⟨2, ![8192, 64]⟩
abbrev S8192x64x1 : Shape := ⟨3, ![8192, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64x128, .f32⟩
  | .hbm, ⟨2, _⟩ => ⟨S_, .f32⟩
  | .hbm, ⟨3, _⟩ => ⟨S8192x64, .f32⟩
  | .hbm, ⟨4, _⟩ => ⟨S8192x64x1, .f32⟩
  | .hbm, ⟨5, _⟩ => ⟨S_, .f32⟩
  | .hbm, ⟨6, _⟩ => ⟨S8192x64x1, .f32⟩
  | .hbm, ⟨7, _⟩ => ⟨S8192x64x1, .f32⟩
  | .hbm, ⟨8, _⟩ => ⟨S_, .f32⟩
  | .hbm, ⟨9, _⟩ => ⟨S8192x64, .f32⟩
  | .hbm, ⟨10, _⟩ => ⟨S8192x64x1, .f32⟩
  | .hbm, ⟨11, _⟩ => ⟨S_, .f32⟩
  | .hbm, ⟨12, _⟩ => ⟨S8192x64x1, .f32⟩
  | .hbm, ⟨13, _⟩ => ⟨S8192x64x1, .f32⟩
  | .hbm, ⟨14, _⟩ => ⟨S8192x64x1, .f32⟩
  | .hbm, ⟨15, _⟩ => ⟨S_, .f32⟩
  | .hbm, ⟨16, _⟩ => ⟨S8192x64x1, .f32⟩
  | .hbm, ⟨17, _⟩ => ⟨S8192x64x1, .f32⟩
  | .hbm, ⟨18, _⟩ => ⟨S_, .f32⟩
  | .hbm, ⟨19, _⟩ => ⟨S8192x64x1, .f32⟩
  | .hbm, ⟨20, _⟩ => ⟨S8192x64x1, .f32⟩
  | .hbm, ⟨21, _⟩ => ⟨S8192x64x1, .f32⟩
  | .hbm, ⟨22, _⟩ => ⟨S_, .f32⟩
  | .hbm, ⟨23, _⟩ => ⟨S8192x64x1, .f32⟩
  | .hbm, ⟨24, _⟩ => ⟨S8192x64x1, .f32⟩
  | .hbm, ⟨25, _⟩ => ⟨S8192x64x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x64x1, .f32⟩
  | .hbm, ⟨30, _⟩ => ⟨S8192x64x1, .f32⟩
  | .hbm, ⟨31, _⟩ => ⟨S_, .f32⟩
  | .hbm, ⟨32, _⟩ => ⟨S8192x64x1, .f32⟩
  | .hbm, ⟨33, _⟩ => ⟨S8192x64x1, .f32⟩
  | .hbm, ⟨34, _⟩ => ⟨S8192x64x128, .f32⟩
  | .hbm, ⟨35, _⟩ => ⟨S8192x64x128, .f32⟩
  | .hbm, ⟨36, _⟩ => ⟨S8192x64x128, .f32⟩
  | .hbm, ⟨37, _⟩ => ⟨S8192x64x128, .f32⟩
  | .hbm, ⟨38, _⟩ => ⟨S8192x64x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x64x128, .f32⟩
  | .hbm, ⟨43, _⟩ => ⟨S8192x64x128, .f32⟩
  | .hbm, ⟨44, _⟩ => ⟨S_, .f32⟩
  | .hbm, ⟨45, _⟩ => ⟨S8192x64x128, .f32⟩
  | .hbm, ⟨46, _⟩ => ⟨S8192x64x128, .f32⟩
  | .hbm, ⟨47, _⟩ => ⟨S8192x64x128, .f32⟩
  | .hbm, ⟨48, _⟩ => ⟨S8192x64x128, .f32⟩
  | .hbm, ⟨49, _⟩ => ⟨S8192x64x128, .f32⟩
  | .hbm, ⟨50, _⟩ => ⟨S8192x64x128, .f32⟩
  | .hbm, ⟨51, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_cst_7 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  shapeCasts_S8192x8192_S8192x64x128 : S8192x8192.ShapeCasts S8192x64x128
  reducesTo_S8192x64x128_S8192x64_d2 : S8192x64x128.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x128_0_1_2 : S8192x64x1.BroadcastsInDim S8192x64x128 (![0, 1, 2] : Fin 3 → Fin S8192x64x128.rank)
  bcast_S_S8192x64x128 : S_.BroadcastsInDim S8192x64x128 (![] : Fin 0 → Fin S8192x64x128.rank)
  shapeCasts_S8192x64x128_S8192x8192 : S8192x64x128.ShapeCasts S8192x8192

variable [Facts₀]

class Facts : Prop extends Facts₀ where

variable [Facts]
-- ==== Proof.LibLanes.lean ====
/-
  Grouped lanes. An array of shape [a, b, c] is read as a rows of b groups of c lanes each. A reduction over the
  lane axis that keeps the axis (jnp's keepdims) leaves one entry per group, carried as a column of shape [a, b, 1]
  and spread back over the c lanes of its group. This file reads those layout steps at an index given by
  coordinates, and reads a lane minimum or maximum — a kernel's vector reduction and the host's reduce alike — as
  the fold of min or max, from the value of the initial word, over the lane coordinate of one group.
-/
import Idealize.ShloMosaic.Lib.Pipeline.Value
import Idealize.ShloMosaic.Lib.ValueIdx
import Idealize.ShloMosaic.PureOps.Ideal.Laws
import Idealize.ShloMosaic.PureOps.Reduce

noncomputable section

namespace Cert.Lanes

open Idealize.ShloMosaic Idealize.ShloMosaic.ValueIdx

variable {α : Type} {a b c : Nat}

/-! ## The per-group column: [a, b] → [a, b, 1] → [a, b, c] -/

/-- A matrix of per-group values cast to a column per group, read at (p, g, 0), is the matrix at (p, g). -/
theorem shapeCast_ab_ab1_apply (x : (⟨2, ![a, b]⟩ : Shape).Idx → α)
    (h : (⟨2, ![a, b]⟩ : Shape).ShapeCasts ⟨3, ![a, b, 1]⟩) (p : Fin a) (g : Fin b) :
    shapeCast ⟨3, ![a, b, 1]⟩ x h (ix3 p g (0 : Fin 1)) = x (ix2 p g) :=
  shapeCast_apply x h (ix3 p g (0 : Fin 1)) (ix2 p g) (by
    rw [Shape.rowMajor_val_two, Shape.rowMajor_val_three]
    show p.val * b + g.val = (p.val * b + g.val) * 1 + 0
    rw [Nat.mul_one, Nat.add_zero])

/-- A column per group spread over the group's lanes, read at (p, g, l), is the column's entry at (p, g, 0):
    every lane of a group sees its group's value. -/
theorem broadcastTo_ab1_abc_apply (x : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ =>
    show (0 : Nat) = if (1 : Nat) = 1 then 0 else l.val
    rw [if_pos rfl]

/-! ## A group's lanes as a fold over the lane coordinate -/

/-- The minimum of group (p, g)'s lanes, folded from the value of the word `w`. -/
def laneMin (w : BitVec 32) (z : (⟨3, ![a, b, c]⟩ : Shape).Idx → EReal) (p : Fin a) (g : Fin b) : EReal :=
  (Finset.univ : Finset (Fin c)).fold min (Ideal.ofBits .f32 w) (fun l => z (ix3 p g l))

/-- The maximum of group (p, g)'s lanes, folded from the value of the word `w`. -/
def laneMax (w : BitVec 32) (z : (⟨3, ![a, b, c]⟩ : Shape).Idx → EReal) (p : Fin a) (g : Fin b) : EReal :=
  (Finset.univ : Finset (Fin c)).fold max (Ideal.ofBits .f32 w) (fun l => z (ix3 p g l))

/-- The source index over group (p, g) with lane coordinate `k` is (p, g, k). -/
theorem lift_lane (h : (⟨3, ![a, b, c]⟩ : Shape).Reduces [2] ⟨2, ![a, b]⟩) (p : Fin a) (g : Fin b)
    (k : Fin ((⟨3, ![a, b, c]⟩ : Shape).size 2)) :
    h.lift (ix2 p g) k = ix3 p g (⟨k.val, k.isLt⟩ : Fin c) := by
  funext ax; apply Fin.ext
  match ax with
  | ⟨0, _⟩ => rfl
  | ⟨1, _⟩ => rfl
  | ⟨2, _⟩ => rfl

/-- A kernel's lane minimum (a vector reduction over the last axis), read at group (p, g) on the extended reals. -/
theorem multiReduction_minimumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.minimumf.neutral .f32 hφ) (p : Fin a) (g : Fin b) :
    multiReduction .minimumf [2] ⟨2, ![a, b]⟩ src w h hφ hacc (ix2 p g) = laneMin w src p g := by
  rw [multiReduction_minimumf_eq_fold]
  refine (h.fold_filter_drop_single _ _ src (ix2 p g)).trans ?_
  exact congrArg (fun f => Finset.fold min (Ideal.ofBits .f32 w) f (Finset.univ : Finset (Fin c)))
    (funext fun k => congrArg src (lift_lane h p g k))

/-- A kernel's lane maximum, read at group (p, g) on the extended reals. -/
theorem multiReduction_maximumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.maximumf.neutral .f32 hφ) (p : Fin a) (g : Fin b) :
    multiReduction .maximumf [2] ⟨2, ![a, b]⟩ src w h hφ hacc (ix2 p g) = laneMax w src p g := by
  rw [multiReduction_maximumf_eq_fold]
  refine (h.fold_filter_drop_single _ _ src (ix2 p g)).trans ?_
  exact congrArg (fun f => Finset.fold max (Ideal.ofBits .f32 w) f (Finset.univ : Finset (Fin c)))
    (funext fun k => congrArg src (lift_lane h p g k))

/-- The host's lane minimum (a reduce with a minimum body over the last axis, from a scalar initial value holding
    the word `w`), read at group (p, g) on the extended reals: the same fold. -/
theorem hostReduce_minimumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.minimumf x (constant (F := Ideal) (⟨0, ![]⟩ : Shape) .f32 w) h' hu (ix2 p g) = laneMin w x p g := by
  rw [Host.reduce_eq_fold_single FloatOps.minimumf x _ h' h hu]
  exact congrArg (fun f => Finset.fold min (Ideal.ofBits .f32 w) f (Finset.univ : Finset (Fin c)))
    (funext fun k => congrArg x (lift_lane h p g k))

/-- The host's lane maximum, read at group (p, g) on the extended reals. -/
theorem hostReduce_maximumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.maximumf x (constant (F := Ideal) (⟨0, ![]⟩ : Shape) .f32 w) h' hu (ix2 p g) = laneMax w x p g := by
  rw [Host.reduce_eq_fold_single FloatOps.maximumf x _ h' h hu]
  exact congrArg (fun f => Finset.fold max (Ideal.ofBits .f32 w) f (Finset.univ : Finset (Fin c)))
    (funext fun k => congrArg x (lift_lane h p g k))

end Cert.Lanes

end
-- ==== Proof.QuantSpec.lean ====
/-
  The specification. A row of 8192 entries is cut into 64 groups of 128 lanes. For each group take the minimum and the
  maximum of its lanes, each widened to include 0:   mn = min(lanemin, 0),   mx = max(lanemax, 0).
  The group's scale is   s = max((mx - mn) / 255, eps)   with eps the f32 machine epsilon 2^-23, and its zero point
  zp = clip(round(-128 - mn / s))   with round to nearest, ties to even, and clip to [-128, 127]. Every entry x of the
  group is then quantized and dequantized:   (clip(round(x / s) + zp) - zp) * s.
  All of it is read on the extended reals, each constant as the value of its f32 word; the operations are taken in
  exactly this order, so nothing here depends on an input being finite.
-/
import Idealize.ShloMosaic.PureOps.Ideal
import proofs.«154091_j90692529423060_2_alg».proof.Proof.LibLanes

noncomputable section

namespace Cert.Quant

open Idealize.ShloMosaic Idealize.ShloMosaic.ValueIdx Cert.Lanes

/-- Round to nearest, ties to even, the infinities fixed. -/
def rnd (x : EReal) : EReal := Ideal.liftRound Ideal.roundHalfEven x

/-- Clip to [-128, 127]: first from below, then from above. -/
def clip (x : EReal) : EReal :=
  min (Ideal.ofBits .f32 0x42FE0000#32) (max (Ideal.ofBits .f32 0xC3000000#32) x)

/-- A group's minimum widened to include 0. -/
def lo0 (lo : EReal) : EReal := min lo (Ideal.ofBits .f32 0x00000000#32)

/-- A group's maximum widened to include 0. -/
def hi0 (hi : EReal) : EReal := max hi (Ideal.ofBits .f32 0x00000000#32)

/-- The group's scale: its widened range over 255, never below the f32 machine epsilon. -/
def scale (lo hi : EReal) : EReal :=
  max (Ideal.div (hi0 hi - lo0 lo) (Ideal.ofBits .f32 0x437F0000#32)) (Ideal.ofBits .f32 0x34000000#32)

/-- The group's zero point. -/
def zeroPoint (lo hi : EReal) : EReal :=
  clip (rnd (Ideal.ofBits .f32 0xC3000000#32 - Ideal.div (lo0 lo) (scale lo hi)))

/-- One entry quantized and dequantized with its group's scale and zero point. -/
def fakeQuant (lo hi x : EReal) : EReal :=
  (clip (rnd (Ideal.div x (scale lo hi)) + zeroPoint lo hi) - zeroPoint lo hi) * scale lo hi

variable {a b c : Nat}

/-- The whole array, entry by entry: each entry with the lane minimum (folded from +inf) and the lane maximum
    (folded from -inf) of its own group. -/
def groupQuant (z : (⟨3, ![a, b, c]⟩ : Shape).Idx → EReal) : (⟨3, ![a, b, c]⟩ : Shape).Idx → EReal := fun i =>
  fakeQuant (laneMin 0x7F800000#32 z (i 0) (i 1)) (laneMax 0xFF800000#32 z (i 0) (i 1)) (z i)

/-- At (p, g, l) the entry is treated with group (p, g)'s extremes. -/
theorem groupQuant_apply (z : (⟨3, ![a, b, c]⟩ : Shape).Idx → EReal) (p : Fin a) (g : Fin b) (l : Fin c) :
    groupQuant z (ix3 p g l) = fakeQuant (laneMin 0x7F800000#32 z p g) (laneMax 0xFF800000#32 z p g) (z (ix3 p g l)) := rfl

/-- An entry's value depends only on its own row: if row p of one array is row r of another, entry for entry, then the
    two arrays' values agree along those rows. (This is what lets a block of rows be treated on its own.) -/
theorem groupQuant_of_row_eq {a' : Nat} (zb : (⟨3, ![a', b, c]⟩ : Shape).Idx → EReal) (z : (⟨3, ![a, b, c]⟩ : Shape).Idx → EReal)
    (p : Fin a') (r : Fin a) (h : ∀ (g : Fin b) (l : Fin c), zb (ix3 p g l) = z (ix3 r g l)) (g : Fin b) (l : Fin c) :
    groupQuant zb (ix3 p g l) = groupQuant z (ix3 r g l) := by
  have hlo : laneMin 0x7F800000#32 zb p g = laneMin 0x7F800000#32 z r g :=
    congrArg (fun f => Finset.fold min (Ideal.ofBits .f32 0x7F800000#32) f (Finset.univ : Finset (Fin c))) (funext fun l' => h g l')
  have hhi : laneMax 0xFF800000#32 zb p g = laneMax 0xFF800000#32 z r g :=
    congrArg (fun f => Finset.fold max (Ideal.ofBits .f32 0xFF800000#32) f (Finset.univ : Finset (Fin c))) (funext fun l' => h g l')
  rw [groupQuant_apply, groupQuant_apply, hlo, hhi, h g l]

end Cert.Quant

end
-- ==== Proof.KernelBlock.lean ====
/-
  What the kernel body stores, entry by entry. The body loads a block of 128 rows, each row 64 groups of 128 lanes,
  and stores one block of the same shape. Grouped by what it computes, the body forms four columns with one entry per
  group — the lane minimum widened to include 0, the lane maximum widened to include 0, the scale, the zero point —
  and then treats every entry with its group's scale and zero point, each column spread back over its group's lanes.
  Read at an index, each of these is the specification's piece of the same name; so the stored block is the
  specification applied to the loaded block.
-/
import proofs.«154091_j90692529423060_2_alg».proof.Proof.Gen.KernelIdeal.Skeleton
import proofs.«154091_j90692529423060_2_alg».proof.Proof.QuantSpec
import Idealize.ShloMosaic.Lib.Pipeline.Value
import Idealize.ShloMosaic.Lib.ValueIdx

noncomputable section

namespace Cert.KernelIdeal.QuantBlock

open Idealize.ShloMosaic Idealize.ShloMosaic.ValueIdx Cert.KernelIdeal Cert.KernelIdeal.Gen Cert.Lanes Cert.Quant

/-! ## The body's columns, one entry per group -/

/-- min(lane minimum, 0) of each group. -/
def loCol (v1 : FVec Ideal S128x64x128 .f32) : FVec Ideal S128x64x1 .f32 :=
  minimumf
    (shapeCast S128x64x1
      (multiReduction .minimumf [2] S128x64 v1 0x7F800000#32 reduces_S128x64x128_S128x64 (.inl rfl) rfl)
      shapeCasts_S128x64_S128x64x1)
    (broadcast S128x64x1 (Scalar.ofBits .f32 0x00000000#32))

/-- max(lane maximum, 0) of each group. -/
def hiCol (v1 : FVec Ideal S128x64x128 .f32) : FVec Ideal S128x64x1 .f32 :=
  maximumf
    (shapeCast S128x64x1
      (multiReduction .maximumf [2] S128x64 v1 0xFF800000#32 reduces_S128x64x128_S128x64 (.inl rfl) rfl)
      shapeCasts_S128x64_S128x64x1)
    (broadcast S128x64x1 (Scalar.ofBits .f32 0x00000000#32))

/-- Each group's scale. -/
def scaleCol (v1 : FVec Ideal S128x64x128 .f32) : FVec Ideal S128x64x1 .f32 :=
  maximumf (divf (subf (hiCol v1) (loCol v1)) (broadcast S128x64x1 (Scalar.ofBits .f32 0x437F0000#32)))
    (broadcast S128x64x1 (Scalar.ofBits .f32 0x34000000#32))

/-- Each group's zero point. -/
def zpCol (v1 : FVec Ideal S128x64x128 .f32) : FVec Ideal S128x64x1 .f32 :=
  minimumf (broadcast S128x64x1 (Scalar.ofBits .f32 0x42FE0000#32))
    (maximumf (broadcast S128x64x1 (Scalar.ofBits .f32 0xC3000000#32))
      (roundeven (subf (broadcast S128x64x1 (Scalar.ofBits .f32 0xC3000000#32)) (divf (loCol v1) (scaleCol v1)))))

/-- The stored block: every entry quantized and dequantized with its group's scale and zero point. -/
def outBlk (v1 : FVec Ideal S128x64x128 .f32) : FVec Ideal S128x64x128 .f32 :=
  mulf
    (subf
      (minimumf (broadcast S128x64x128 (Scalar.ofBits .f32 0x42FE0000#32))
        (maximumf (broadcast S128x64x128 (Scalar.ofBits .f32 0xC3000000#32))
          (addf (roundeven (divf v1 (broadcastTo S128x64x128 (scaleCol v1) broadcasts_S128x64x1_S128x64x128)))
            (broadcastTo S128x64x128 (zpCol v1) broadcasts_S128x64x1_S128x64x128))))
      (broadcastTo S128x64x128 (zpCol v1) broadcasts_S128x64x1_S128x64x128))
    (broadcastTo S128x64x128 (scaleCol v1) broadcasts_S128x64x1_S128x64x128)

/-- The body's stored value is this grouping of its own operations, of the loaded block cast to its own shape. -/
theorem payload_cols (v0 : Vec Ideal S128x64x128 .f32) :
    k0_pay1 (F := Ideal) v0 = outBlk (shapeCast S128x64x128 v0 shapeCasts_S128x64x128_S128x64x128) := rfl

/-! ## Each column read at its group

At group (p, g) each column holds the specification's value of the same name, of that group's lane minimum and lane
maximum: the widened extremes first, then the scale from them, then the zero point from the minimum and the scale. -/

/-- Rounding acts entry by entry. -/
theorem roundeven_at {s : Shape} (x : FVec Ideal s .f32) (i : s.Idx) :
    roundeven x i = Ideal.liftRound Ideal.roundHalfEven (x i) := rfl

variable (v1 : FVec Ideal S128x64x128 .f32) (p : Fin 128) (g : Fin 64)

theorem loCol_apply : loCol v1 (ix3 p g (0 : Fin 1)) = lo0 (laneMin 0x7F800000#32 v1 p g) := by
  have hm := multiReduction_minimumf_lane (a := 128) (b := 64) (c := 128) v1 0x7F800000#32
    reduces_S128x64x128_S128x64 (.inl rfl) rfl p g
  unfold loCol
  rw [minimumf_apply, broadcast_apply,
    shapeCast_ab_ab1_apply (a := 128) (b := 64) _ shapeCasts_S128x64_S128x64x1 p g, hm]
  unfold lo0
  rfl

theorem hiCol_apply : hiCol v1 (ix3 p g (0 : Fin 1)) = hi0 (laneMax 0xFF800000#32 v1 p g) := by
  have hm := multiReduction_maximumf_lane (a := 128) (b := 64) (c := 128) v1 0xFF800000#32
    reduces_S128x64x128_S128x64 (.inl rfl) rfl p g
  unfold hiCol
  rw [maximumf_apply, broadcast_apply,
    shapeCast_ab_ab1_apply (a := 128) (b := 64) _ shapeCasts_S128x64_S128x64x1 p g, hm]
  unfold hi0
  rfl

theorem scaleCol_apply :
    scaleCol v1 (ix3 p g (0 : Fin 1)) = scale (laneMin 0x7F800000#32 v1 p g) (laneMax 0xFF800000#32 v1 p g) := by
  unfold scaleCol
  rw [maximumf_apply, divf_apply, subf_apply, broadcast_apply, broadcast_apply, hiCol_apply, loCol_apply]
  unfold scale
  rfl

theorem zpCol_apply :
    zpCol v1 (ix3 p g (0 : Fin 1)) = zeroPoint (laneMin 0x7F800000#32 v1 p g) (laneMax 0xFF800000#32 v1 p g) := by
  unfold zpCol
  rw [minimumf_apply, maximumf_apply, roundeven_at, subf_apply, divf_apply, broadcast_apply, broadcast_apply,
    loCol_apply, scaleCol_apply]
  unfold zeroPoint clip rnd
  rfl

/-- The stored block at row p, group g, lane l is the loaded block's entry there, fake-quantized with the scale and
    zero point of group (p, g). -/
theorem outBlk_apply (l : Fin 128) : outBlk v1 (ix3 p g l) = groupQuant v1 (ix3 p g l) := by
  unfold outBlk
  rw [mulf_apply, subf_apply, minimumf_apply, maximumf_apply, addf_apply, roundeven_at, divf_apply,
    broadcast_apply, broadcast_apply,
    broadcastTo_ab1_abc_apply (scaleCol v1) broadcasts_S128x64x1_S128x64x128 p g l,
    broadcastTo_ab1_abc_apply (zpCol v1) broadcasts_S128x64x1_S128x64x128 p g l,
    scaleCol_apply, zpCol_apply, groupQuant_apply]
  unfold fakeQuant clip rnd
  rfl

/-- The stored block is the specification applied to the loaded block. -/
theorem payload_eq (v0 : Vec Ideal S128x64x128 .f32) : k0_pay1 (F := Ideal) v0 = groupQuant v0 := by
  rw [payload_cols, shapeCast_self]
  funext j
  obtain ⟨p, g, l, rfl⟩ : ∃ (p : Fin 128) (g : Fin 64) (l : Fin 128), j = ix3 p g l := ⟨j 0, j 1, j 2, eq_ix3 j⟩
  exact outBlk_apply v0 p g l

end Cert.KernelIdeal.QuantBlock

end
-- ==== Proof.KernelArray.lean ====
/-
  From blocks to the array. Grid point t treats rows 128·t … 128·t + 127 of the reshaped argument: it loads that block
  of rows, and writes the specification of the block back to the same rows of the output. An entry's value depends only
  on its own row, so the specification of a block of rows is the block of the specification of the whole array; the 64
  blocks tile the 8192 rows, so after the run the output array is the specification of the reshaped argument. Around
  the region the program reshapes [8192, 8192] to [8192, 64, 128] and back.
-/
import proofs.«154091_j90692529423060_2_alg».proof.Proof.Gen.KernelIdeal.Frame
import proofs.«154091_j90692529423060_2_alg».proof.Proof.KernelBlock
import Idealize.ShloMosaic.Lib.Pipeline.Value
import Idealize.ShloMosaic.Lib.StableHlo.Run
import Idealize.ShloMosaic.Lib.ValueIdx

set_option maxRecDepth 16384

noncomputable section

namespace Cert.KernelIdeal.QuantArray

open Idealize.ShloMosaic Idealize.ShloMosaic.TcCoe Idealize.ShloMosaic.ValueIdx Idealize.ShloMosaic.StableHlo
open Idealize.SL Idealize.SL.Sem
open Cert.KernelIdeal Cert.KernelIdeal.Gen Cert.Lanes Cert.Quant
open Idealize.ShloMosaic.Pipeline (Dat)

variable (m : (ℓ : Loc nD τ sig) → Buf (Elt Ideal) ℓ) (ρ : Dev nD → PrngReg)

-- of the specification only one fact is needed here: an entry's value depends only on its own row
attribute [local irreducible] Cert.Quant.groupQuant

theorem hz : (![0, 0, 0] : Fin 3 → Nat) = fun _ => 0 := funext fun a => by fin_cases a <;> rfl

/-- The two windows move together, one block of rows per grid point, never along groups or lanes; the block index stays
    below 64. Decided over the 64 points. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 63 :=
  (by decide +kernel : ∀ t : Fin grid0.N, _)

/-- Every block of rows is some point's. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- Entry (p, g, l) of the output's block at point t sits at row 128·(block index) + p of the array, same group, same
    lane. -/
theorem emb_out (t : Fin cfg0.N) (p : Fin 128) (g : Fin 64) (l : Fin 128) (R : Fin 8192)
    (hR : R.val = win0_1.index t (0 : Fin 3) * 128 + p.val) :
    ((cfg0.win 1).blk t).view.emb (ix3 p g l) = ix3 R g l := by
  obtain ⟨-, -, -, e1, e2, -⟩ := idx_facts t
  funext a; apply Fin.ext
  match a with
  | ⟨0, _⟩ => show win0_1.index t (0 : Fin 3) * 128 + 1 * p.val = R.val; omega
  | ⟨1, _⟩ => show win0_1.index t (1 : Fin 3) * 64 + 1 * g.val = g.val; omega
  | ⟨2, _⟩ => show win0_1.index t (2 : Fin 3) * 128 + 1 * l.val = l.val; omega

/-- The same for the input's block. -/
theorem emb_in (t : Fin cfg0.N) (p : Fin 128) (g : Fin 64) (l : Fin 128) (R : Fin 8192)
    (hR : R.val = win0_1.index t (0 : Fin 3) * 128 + p.val) :
    ((cfg0.win 0).blk t).view.emb (ix3 p g l) = ix3 R g l := by
  obtain ⟨e0, e1, e2, -, -, -⟩ := idx_facts t
  funext a; apply Fin.ext
  match a with
  | ⟨0, _⟩ => show win0_0.index t (0 : Fin 3) * 128 + 1 * p.val = R.val; omega
  | ⟨1, _⟩ => show win0_0.index t (1 : Fin 3) * 64 + 1 * g.val = g.val; omega
  | ⟨2, _⟩ => show win0_0.index t (2 : Fin 3) * 128 + 1 * l.val = l.val; omega

/-- The input block at point t, entry (p, g, l), is the reshaped argument at row 128·(block index) + p. -/
theorem iblk_apply (c : Dev nD) (t : Fin cfg0.N) (p : Fin 128) (g : Fin 64) (l : Fin 128) (R : Fin 8192)
    (hR : R.val = win0_1.index t (0 : Fin 3) * 128 + p.val) :
    iblk m c 0 t (ix3 p g l) = V m c main_v0 (ix3 R g l) := by
  show V m c main_v0 (((cfg0.win 0).blk t).view.emb (ix3 p g l)) = V m c main_v0 (ix3 R g l)
  exact congrArg (V m c main_v0) (emb_in t p g l R hR)

/-- The specification of the input block at point t, at a block index, is the specification of the reshaped argument at
    the array index under it in the output's block: the block's row p is the array's row 128·(block index) + p. -/
theorem block_eq (c : Dev nD) (t : Fin cfg0.N) (y : S128x64x128.Idx) :
    groupQuant (a := 128) (b := 64) (c := 128) (iblk m c 0 t) y
      = groupQuant (a := 8192) (b := 64) (c := 128) (V m c main_v0 : S8192x64x128.Idx → EReal)
          (((cfg0.win 1).blk t).view.emb y) := by
  obtain ⟨p, g, l, rfl⟩ : ∃ (p : Fin 128) (g : Fin 64) (l : Fin 128), y = ix3 p g l := ⟨y 0, y 1, y 2, eq_ix3 y⟩
  obtain ⟨-, -, -, -, -, e5⟩ := idx_facts t
  have hp : p.val < 128 := p.isLt
  have hR : win0_1.index t (0 : Fin 3) * 128 + p.val < 8192 := by omega
  rw [emb_out t p g l ⟨win0_1.index t (0 : Fin 3) * 128 + p.val, hR⟩ rfl]
  exact groupQuant_of_row_eq (iblk m c 0 t) (V m c main_v0 : S8192x64x128.Idx → EReal) p
    ⟨win0_1.index t (0 : Fin 3) * 128 + p.val, hR⟩
    (fun g' l' => iblk_apply m c t p g' l' ⟨win0_1.index t (0 : Fin 3) * 128 + p.val, hR⟩ rfl) g l

/-- WHAT POINT t WRITES BACK is block t of the specification of the reshaped argument. -/
theorem flushed_eq (c : Dev nD) (t : Fin cfg0.N) :
    (dats m 0 c).flushed 1 t
      = ((cfg0.win 1).blk t).view.read (Elt Ideal)
          (groupQuant (a := 8192) (b := 64) (c := 128) (V m c main_v0 : S8192x64x128.Idx → EReal)) := by
  show (cfg0.win 1).cut (grid0.coords t) ((dats m 0 c).after 1 t) = _
  rw [after0_1]
  unfold out0_1
  rw [View.canon_unit_zero hz]
  simp only [View.ld_unit_zero (S := S128x64x128) hz]
  rw [Cert.KernelIdeal.QuantBlock.payload_eq]
  funext y
  exact block_eq m c t y

/-- An index of the array is in point t's block iff each coordinate is in the block's range on its axis. -/
theorem mem_blk (t : Fin cfg0.N) (i : S8192x64x128.Idx) :
    i ∈ ((cfg0.win 1).blk t).view.set ↔ ∀ a : Fin 3, win0_1.index t a * S128x64x128.size a ≤ (i a).val
      ∧ (i a).val < win0_1.index t a * S128x64x128.size a + S128x64x128.size a := by
  show i ∈ ((View.whole main_v1).slice (win0_1.rect t)).set ↔ _
  rw [View.set_slice_whole, Rect.mem_set_unit]
  exact Iff.rfl

/-- The blocks tile the array: row r is in the block of point r / 128. -/
theorem cover (i : S8192x64x128.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 128 := (i 2).isLt
  obtain ⟨t, ht⟩ := idx_onto ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 128 ≤ (i 0).val ∧ (i 0).val < win0_1.index t (0 : Fin 3) * 128 + 128
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 128 ≤ (i 2).val ∧ (i 2).val < win0_1.index t (2 : Fin 3) * 128 + 128
    omega

/-- THE OUTPUT ARRAY after the run is the specification of the reshaped argument. -/
theorem final (c : Dev nD) :
    (dats m 0 c).arrAt 1 cfg0.N
      = groupQuant (a := 8192) (b := 64) (c := 128) (V m c main_v0 : S8192x64x128.Idx → EReal) :=
  (dats m 0 c).arrAt_eq_of_cover 1 _ (fun t _ => flushed_eq m c t) cover

/-- The region finds the argument reshaped into rows of 64 groups of 128 lanes. -/
theorem V_main_v0 (c : Dev nD) :
    (V m c main_v0 : S8192x64x128.Idx → EReal)
      = shapeCast S8192x64x128 (m ((c : Thread nD τ).loc main_arg0)) shapeCasts_S8192x8192_S8192x64x128 := by
  show StableHlo.after hostOps0 (fun b => m (c, b)) (Proc.devRef .tc main_v0) = _
  after_results
  rfl

/-- The program's result: the output array reshaped back to [8192, 8192]. -/
theorem result (c : Dev nD) :
    Pipeline.afterTail₀ cfgs (dats m) 0 (V0 m) [hostOps1] c main_v2
      = shapeCast S8192x8192
          (groupQuant (a := 8192) (b := 64) (c := 128)
            (shapeCast S8192x64x128 (m ((c : Thread nD τ).loc main_arg0)) shapeCasts_S8192x8192_S8192x64x128))
          shapeCasts_S8192x64x128_S8192x8192 := by
  unfold Pipeline.afterTail₀
  show StableHlo.after hostOps1 _ (Proc.devRef .tc main_v2) = _
  after_results
  rw [← V_main_v0 m c]
  exact congrArg (fun z => shapeCast S8192x8192 z shapeCasts_S8192x64x128_S8192x8192)
    ((Pipeline.withArrays_arr spec0 launch0.win.arr_inj c _ _ (1 : Fin 2)).trans (final m c))

/-- The frame run re-posted: the result at the specification of the reshaped argument, reshaped back; the argument
    unchanged. -/
theorem run : θ_run defs (onTc (τ := τ) (main (F := Ideal))) ⟨m, fun _ => 0, ρ⟩ fun r => ∀ c : Dev nD,
      r.2.mem ((c.tc : Thread nD τ).loc main_v2)
        = shapeCast S8192x8192
            (groupQuant (a := 8192) (b := 64) (c := 128)
              (shapeCast S8192x64x128 (m ((c.tc : Thread nD τ).loc main_arg0)) shapeCasts_S8192x8192_S8192x64x128))
            shapeCasts_S8192x64x128_S8192x8192
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result m c),
       ((h c).2 main_arg0 (Pipeline.mem_restRefs_of main_arg0 (by decide) (by decide))).trans (W_main_arg0 m (dats m) c)⟩)
    (run_main m ρ)

end Cert.KernelIdeal.QuantArray

end
-- ==== Proof.RefQuant.lean ====
/-
  The reference, entry by entry. Its last stage before the final reshape is the specification applied to the reshaped
  argument: the two reduces are the lane minimum and maximum of a group, a per-group value reaches lane l of group
  (r, g) through the column entry (r, g, 0), and every other stage acts entry by entry, in the specification's order.
-/
import proofs.«154091_j90692529423060_2_alg».proof.Proof.Gen.ReferenceIdeal.Read
import proofs.«154091_j90692529423060_2_alg».proof.Proof.QuantSpec
import Idealize.ShloMosaic.Lib.ValueIdx

noncomputable section

namespace Cert.ReferenceIdeal.RefQuant

open Idealize.ShloMosaic Idealize.ShloMosaic.TcCoe Idealize.ShloMosaic.ValueIdx Idealize.SL.Sem
open Cert.ReferenceIdeal Cert.ReferenceIdeal.Gen Cert.ReferenceIdeal.Read Cert.Lanes Cert.Quant

/-- The stage before the final reshape is the specification of the reshaped argument. -/
theorem stage_eq (x0 : (⟨S8192x8192, .f32⟩ : BufTy).Contents (Elt Ideal)) :
    val_main_v28 (F := Ideal) x0 = groupQuant (val_main_v0 (F := Ideal) x0) := by
  funext i
  obtain ⟨r, g, l, rfl⟩ : ∃ (r : Fin 8192) (g : Fin 64) (l : Fin 128), i = ix3 r g l := ⟨i 0, i 1, i 2, eq_ix3 i⟩
  -- lane l of group (r, g) reads a per-group column at (r, g, 0)
  have e19 : idx_main_v19 (ix3 r g l) = ix3 r g (0 : Fin 1) :=
    funext fun a => Fin.ext (by match a with | ⟨0, _⟩ => rfl | ⟨1, _⟩ => rfl | ⟨2, _⟩ => rfl)
  have e22 : idx_main_v22 (ix3 r g l) = ix3 r g (0 : Fin 1) :=
    funext fun a => Fin.ext (by match a with | ⟨0, _⟩ => rfl | ⟨1, _⟩ => rfl | ⟨2, _⟩ => rfl)
  have e25 : idx_main_v25 (ix3 r g l) = ix3 r g (0 : Fin 1) :=
    funext fun a => Fin.ext (by match a with | ⟨0, _⟩ => rfl | ⟨1, _⟩ => rfl | ⟨2, _⟩ => rfl)
  have e27 : idx_main_v27 (ix3 r g l) = ix3 r g (0 : Fin 1) :=
    funext fun a => Fin.ext (by match a with | ⟨0, _⟩ => rfl | ⟨1, _⟩ => rfl | ⟨2, _⟩ => rfl)
  -- the column entry (r, g, 0) reads a per-group matrix at (r, g)
  have e2 : idx_main_v2 (ix3 r g (0 : Fin 1)) = ix2 r g :=
    funext fun a => Fin.ext (by match a with | ⟨0, _⟩ => rfl | ⟨1, _⟩ => rfl)
  have e6 : idx_main_v6 (ix3 r g (0 : Fin 1)) = ix2 r g :=
    funext fun a => Fin.ext (by match a with | ⟨0, _⟩ => rfl | ⟨1, _⟩ => rfl)
  have h19 : val_main_v19 (F := Ideal) x0 (ix3 r g l) = val_main_v13 (F := Ideal) x0 (ix3 r g (0 : Fin 1)) :=
    (val_main_v19_apply x0 _).trans (congrArg _ e19)
  have h22 : val_main_v22 (F := Ideal) x0 (ix3 r g l) = val_main_v18 (F := Ideal) x0 (ix3 r g (0 : Fin 1)) :=
    (val_main_v22_apply x0 _).trans (congrArg _ e22)
  have h25 : val_main_v25 (F := Ideal) x0 (ix3 r g l) = val_main_v18 (F := Ideal) x0 (ix3 r g (0 : Fin 1)) :=
    (val_main_v25_apply x0 _).trans (congrArg _ e25)
  have h27 : val_main_v27 (F := Ideal) x0 (ix3 r g l) = val_main_v13 (F := Ideal) x0 (ix3 r g (0 : Fin 1)) :=
    (val_main_v27_apply x0 _).trans (congrArg _ e27)
  -- the two reduces are the lane minimum and maximum of group (r, g)
  have hlo : val_main_v2 (F := Ideal) x0 (ix3 r g (0 : Fin 1))
      = laneMin 0x7F800000#32 (val_main_v0 (F := Ideal) x0) r g := by
    refine ((val_main_v2_apply x0 _).trans (congrArg _ e2)).trans ?_
    unfold val_main_v1 val_main_cst
    exact hostReduce_minimumf_lane (a := 8192) (b := 64) (c := 128) (val_main_v0 (F := Ideal) x0) 0x7F800000#32
      reducesTo_S8192x64x128_S8192x64_d2 (by decide) h_S_ r g
  have hhi : val_main_v6 (F := Ideal) x0 (ix3 r g (0 : Fin 1))
      = laneMax 0xFF800000#32 (val_main_v0 (F := Ideal) x0) r g := by
    refine ((val_main_v6_apply x0 _).trans (congrArg _ e6)).trans ?_
    unfold val_main_v5 val_main_cst_1
    exact hostReduce_maximumf_lane (a := 8192) (b := 64) (c := 128) (val_main_v0 (F := Ideal) x0) 0xFF800000#32
      reducesTo_S8192x64x128_S8192x64_d2 (by decide) h_S_ r g
  -- the stages are read one at a time, each one operation of the stage before, and joined to the specification's
  -- pieces; first the scalar constants, spread to every index
  have kz3 : val_main_v3 (F := Ideal) (ix3 r g (0 : Fin 1)) = Ideal.ofBits .f32 0x00000000#32 :=
    (val_main_v3_apply _).trans (val_main_cst_0_apply _)
  have kz7 : val_main_v7 (F := Ideal) (ix3 r g (0 : Fin 1)) = Ideal.ofBits .f32 0x00000000#32 :=
    (val_main_v7_apply _).trans (val_main_cst_2_apply _)
  have k255 : val_main_v10 (F := Ideal) (ix3 r g (0 : Fin 1)) = Ideal.ofBits .f32 0x437F0000#32 :=
    (val_main_v10_apply _).trans (val_main_cst_3_apply _)
  have keps : val_main_v12 (F := Ideal) (ix3 r g (0 : Fin 1)) = Ideal.ofBits .f32 0x34000000#32 :=
    (val_main_v12_apply _).trans (val_main_cst_4_apply _)
  have km128 : val_main_v15 (F := Ideal) (ix3 r g (0 : Fin 1)) = Ideal.ofBits .f32 0xC3000000#32 :=
    (val_main_v15_apply _).trans (val_main_cst_5_apply _)
  have klo1 : val_main_call1_v1 (F := Ideal) (ix3 r g (0 : Fin 1)) = Ideal.ofBits .f32 0xC3000000#32 :=
    ((val_main_call1_v1_apply _).trans (val_main_call1_v0_apply _)).trans (val_main_cst_6_apply _)
  have khi1 : val_main_call1_v4 (F := Ideal) (ix3 r g (0 : Fin 1)) = Ideal.ofBits .f32 0x42FE0000#32 :=
    ((val_main_call1_v4_apply _).trans (val_main_call1_v3_apply _)).trans (val_main_cst_7_apply _)
  have klo3 : val_main_call3_v1 (F := Ideal) (ix3 r g l) = Ideal.ofBits .f32 0xC3000000#32 :=
    ((val_main_call3_v1_apply _).trans (val_main_call3_v0_apply _)).trans (val_main_cst_8_apply _)
  have khi3 : val_main_call3_v4 (F := Ideal) (ix3 r g l) = Ideal.ofBits .f32 0x42FE0000#32 :=
    ((val_main_call3_v4_apply _).trans (val_main_call3_v3_apply _)).trans (val_main_cst_9_apply _)
  -- the group's column: widened extremes, scale, zero point
  have c4 : val_main_v4 (F := Ideal) x0 (ix3 r g (0 : Fin 1))
      = lo0 (laneMin 0x7F800000#32 (val_main_v0 (F := Ideal) x0) r g) :=
    (val_main_v4_apply x0 _).trans (congrArg₂ (FloatOps.minimumf (F := Ideal) (φ := .f32)) hlo kz3)
  have c8 : val_main_v8 (F := Ideal) x0 (ix3 r g (0 : Fin 1))
      = hi0 (laneMax 0xFF800000#32 (val_main_v0 (F := Ideal) x0) r g) :=
    (val_main_v8_apply x0 _).trans (congrArg₂ (FloatOps.maximumf (F := Ideal) (φ := .f32)) hhi kz7)
  have c9 := (val_main_v9_apply (F := Ideal) x0 (ix3 r g (0 : Fin 1))).trans
    (congrArg₂ (FloatOps.subf (F := Ideal) (φ := .f32)) c8 c4)
  have c11 := (val_main_v11_apply (F := Ideal) x0 (ix3 r g (0 : Fin 1))).trans
    (congrArg₂ (FloatOps.hostDivf (F := Ideal) (φ := .f32)) c9 k255)
  have c13 : val_main_v13 (F := Ideal) x0 (ix3 r g (0 : Fin 1))
      = scale (laneMin 0x7F800000#32 (val_main_v0 (F := Ideal) x0) r g) (laneMax 0xFF800000#32 (val_main_v0 (F := Ideal) x0) r g) :=
    (val_main_v13_apply x0 _).trans (congrArg₂ (FloatOps.maximumf (F := Ideal) (φ := .f32)) c11 keps)
  have c14 := (val_main_v14_apply (F := Ideal) x0 (ix3 r g (0 : Fin 1))).trans
    (congrArg₂ (FloatOps.hostDivf (F := Ideal) (φ := .f32)) c4 c13)
  have c16 := (val_main_v16_apply (F := Ideal) x0 (ix3 r g (0 : Fin 1))).trans
    (congrArg₂ (FloatOps.subf (F := Ideal) (φ := .f32)) km128 c14)
  have c17 := (val_main_v17_apply (F := Ideal) x0 (ix3 r g (0 : Fin 1))).trans
    (congrArg (FloatOps.hostUnary (F := Ideal) (φ := .f32) .roundeven) c16)
  have cc2 := (val_main_call1_v2_apply (F := Ideal) x0 (ix3 r g (0 : Fin 1))).trans
    (congrArg₂ (FloatOps.maximumf (F := Ideal) (φ := .f32)) klo1 c17)
  have c18 : val_main_v18 (F := Ideal) x0 (ix3 r g (0 : Fin 1))
      = zeroPoint (laneMin 0x7F800000#32 (val_main_v0 (F := Ideal) x0) r g) (laneMax 0xFF800000#32 (val_main_v0 (F := Ideal) x0) r g) :=
    (val_main_v18_apply x0 _).trans (congrArg₂ (FloatOps.minimumf (F := Ideal) (φ := .f32)) khi1 cc2)
  -- the entry itself
  have d20 := (val_main_v20_apply (F := Ideal) x0 (ix3 r g l)).trans
    (congrArg (FloatOps.hostDivf (F := Ideal) (φ := .f32) (val_main_v0 (F := Ideal) x0 (ix3 r g l))) (h19.trans c13))
  have d21 := (val_main_v21_apply (F := Ideal) x0 (ix3 r g l)).trans
    (congrArg (FloatOps.hostUnary (F := Ideal) (φ := .f32) .roundeven) d20)
  have d23 := (val_main_v23_apply (F := Ideal) x0 (ix3 r g l)).trans
    (congrArg₂ (FloatOps.addf (F := Ideal) (φ := .f32)) d21 (h22.trans c18))
  have dc2 := (val_main_call3_v2_apply (F := Ideal) x0 (ix3 r g l)).trans
    (congrArg₂ (FloatOps.maximumf (F := Ideal) (φ := .f32)) klo3 d23)
  have d24 := (val_main_v24_apply (F := Ideal) x0 (ix3 r g l)).trans
    (congrArg₂ (FloatOps.minimumf (F := Ideal) (φ := .f32)) khi3 dc2)
  have d26 := (val_main_v26_apply (F := Ideal) x0 (ix3 r g l)).trans
    (congrArg₂ (FloatOps.subf (F := Ideal) (φ := .f32)) d24 (h25.trans c18))
  exact (val_main_v28_apply (F := Ideal) x0 (ix3 r g l)).trans
    (congrArg₂ (FloatOps.mulf (F := Ideal) (φ := .f32)) d26 (h27.trans c13))

/-- The reference's result: the specification of the reshaped argument, reshaped back. -/
theorem result_eq (m : (ℓ : Loc nD τ sig) → Buf (Elt Ideal) ℓ) (c : Dev nD) :
    Cert.ReferenceIdeal.Value.res_main_v29 (F := Ideal) m c
      = shapeCast S8192x8192
          (groupQuant (shapeCast S8192x64x128 (m ((c.tc : Thread nD τ).loc main_arg0)) shapeCasts_S8192x8192_S8192x64x128))
          shapeCasts_S8192x64x128_S8192x8192 := by
  rw [val_main_v29_eq]
  unfold val_main_v29
  rw [stage_eq]
  rfl

end Cert.ReferenceIdeal.RefQuant

end
-- ==== Proof.lean ====
/-
  Dynamic per-group fake quantization, kernel against reference, on the extended reals.

  Both programs take x : f32[8192, 8192], read each row as 64 groups of 128 lanes, and per group compute
      mn = min(min over the group's lanes, 0),   mx = max(max over the group's lanes, 0),
      s  = max((mx - mn) / 255, eps),            zp = clip(round(-128 - mn / s)),
  and replace every entry x of the group by (clip(round(x / s) + zp) - zp) · s, with round to nearest even and clip to
  [-128, 127]. The kernel does this 128 rows at a time over a grid of 64 points; the reference does it on the whole
  array at once. The two apply the same operations in the same order to the same entries, with the same constants:
    · a lane minimum or maximum is, in the kernel a vector reduction and on the host a reduce, the same fold of min or
      max over the 128 lanes of a group, from +inf or -inf;
    · the kernel's quotient and the host's are one function on the extended reals, and so are their roundings;
    · an entry's value depends only on its own row, so treating 128 rows at a time changes nothing.
  No law that needs a finite argument is used (nothing is distributed, cancelled or moved across a sum), so the proof
  never opens the precondition. The idealization rewrote no operation of the kernel, so that conjunct is trivial.
-/
import proofs.«154091_j90692529423060_2_alg».proof.Defs
import proofs.«154091_j90692529423060_2_alg».proof.Proof.Gen.Kernel
import proofs.«154091_j90692529423060_2_alg».proof.Proof.Gen.Kernel.Frame
import proofs.«154091_j90692529423060_2_alg».proof.Proof.Gen.KernelIdeal
import proofs.«154091_j90692529423060_2_alg».proof.Proof.Gen.KernelIdeal.Frame
import proofs.«154091_j90692529423060_2_alg».proof.Proof.Gen.ReferenceIdeal
import proofs.«154091_j90692529423060_2_alg».proof.Proof.Gen.ReferenceIdeal.Run
import proofs.«154091_j90692529423060_2_alg».proof.Proof.Gen.Pre_finite_inputs
import proofs.«154091_j90692529423060_2_alg».proof.Proof.KernelArray
import proofs.«154091_j90692529423060_2_alg».proof.Proof.RefQuant
import Idealize.ShloMosaic.Adequacy
import Idealize.ShloMosaic.Init

noncomputable section

namespace Cert.Proof

open Idealize.ShloMosaic Idealize.ShloMosaic.TcCoe Idealize.SL.Sem

-- both runs end at the specification of the same array, so nothing about the specification itself is needed here
attribute [local irreducible] Cert.Quant.groupQuant

/-- Both idealized programs end with the specification of the reshaped argument, reshaped back: the kernel's run read
    block by block, the reference's read stage by stage, from memories that agree on the argument. -/
theorem algebraic : Cert.algebraic_KernelIdeal_ReferenceIdeal := by
  intro m ρ m' ρ' _ hagree
  refine ⟨_, Cert.KernelIdeal.QuantArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefQuant.result_eq, hagree c]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
